-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S3200000x4 : Shape := ⟨2, ![3200000, 4]⟩
abbrev S4x12 : Shape := ⟨2, ![4, 12]⟩
abbrev S12 : Shape := ⟨1, ![12]⟩
abbrev S12x64 : Shape := ⟨2, ![12, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S4x12 : S_.BroadcastsInDim S4x12 (![] : Fin 0 → Fin S4x12.rank)
  reducesTo_S4x12_S_d0_1 : S4x12.ReducesTo [0, 1] S_
  bcast_S_S12 : S_.BroadcastsInDim S12 (![] : Fin 0 → Fin S12.rank)
  reducesTo_S12_S_d0 : S12.ReducesTo [0] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64x32 .f32) (main_arg9 : FVec F S32 .f32) (main_arg10 : FVec F S32x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_v48 main_v49 main_v50

def fn_part1 {F : FTy → Type} [FloatOps F] (main_arg4 : FVec F S12x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12x64 .f32 := Host.absf main_arg4
  let main_cst_6 : FVec F S_ .f32 := constant S_ .f32 0x7F800000#32
  let main_v20 : FVec F S12x64 .f32 := broadcastInDim S12x64 ![] bcast_S_S12x64 main_cst_6
  let main_v21 : IVec S12x64 1 := cmpf .olt main_v19 main_v20
  let main_c_7 : IVec S_ 1 := constantI S_ 1 1#1
  let main_v22 : IVec S_ 1 := (fun x v => Host.reduce IntOp.andi x v reducesTo_S12x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x12 .f32) (main_arg1 : FVec F S3200000x4 .f32) (main_arg2 : FVec F S4x12 .f32) (main_arg3 : FVec F S12 .f32) (main_arg4 : FVec F S12x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) (main_arg12 : IVec S2x3200000 32) (main_arg13 : IVec S100000 32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S3200000x4 .f32 := Host.absf main_arg1
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S4x12 .f32 := Host.absf main_arg2
  let main_cst_2 : FVec F S_ .f32 := constant S_ .f32 0x7F800000#32
  let main_v10 : FVec F S4x12 .f32 := broadcastInDim S4x12 ![] bcast_S_S4x12 main_cst_2
  let main_v11 : IVec S4x12 1 := cmpf .olt main_v9 main_v10
  let main_c_3 : IVec S_ 1 := constantI S_ 1 1#1
  let main_v12 : IVec S_ 1 := (fun x v => Host.reduce IntOp.andi x v reducesTo_S4x12_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_arg7 main_arg8 main_arg9 main_arg10 main_arg11 main_v13 main_v16
-- ==== Kernel.lean ====
abbrev S100000x12 : Shape := ⟨2, ![100000, 12]⟩
abbrev S3200000x4 : Shape := ⟨2, ![3200000, 4]⟩
abbrev S4x12 : Shape := ⟨2, ![4, 12]⟩
abbrev S12 : Shape := ⟨1, ![12]⟩
abbrev S12x64 : Shape := ⟨2, ![12, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S1x12 : Shape := ⟨2, ![1, 12]⟩
abbrev S8000x12 : Shape := ⟨2, ![8000, 12]⟩
abbrev S8000x4 : Shape := ⟨2, ![8000, 4]⟩
abbrev S1x64 : Shape := ⟨2, ![1, 64]⟩
abbrev S100000x64 : Shape := ⟨2, ![100000, 64]⟩
abbrev S5000x12 : Shape := ⟨2, ![5000, 12]⟩
abbrev S5000x64 : Shape := ⟨2, ![5000, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S2048x32 : Shape := ⟨2, ![2048, 32]⟩
abbrev S1x32 : Shape := ⟨2, ![1, 32]⟩
abbrev S1x1 : Shape := ⟨2, ![1, 1]⟩

abbrev nBuf : Space → Nat
  | .hbm => 63
  | .vmem => 18
  | .smem => 0
  | _ => 0

abbrev bufTy : (tb : Table) → Fin (tcTables nBuf tb) → BufTy
  | .hbm, ⟨0, _⟩ => ⟨S100000x12, .f32⟩
  | .hbm, ⟨1, _⟩ => ⟨S3200000x4, .f32⟩
  | .hbm, ⟨2, _⟩ => ⟨S4x12, .f32⟩
  | .hbm, ⟨3, _⟩ => ⟨S12, .f32⟩
  | .hbm, ⟨4, _⟩ => ⟨S12x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S2x3200000, .i32⟩
  | .hbm, ⟨13, _⟩ => ⟨S100000, .i32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x12, .f32⟩
  | .hbm, ⟨27, _⟩ => ⟨S1x12, .f32⟩
  | .hbm, ⟨28, _⟩ => ⟨S3200000x12, .f32⟩
  | .hbm, ⟨29, _⟩ => ⟨S_, .f32⟩
  | .hbm, ⟨30, _⟩ => ⟨S100000x12, .f32⟩
  | .hbm, ⟨31, _⟩ => ⟨S3200000x1, .i32⟩
  | .hbm, ⟨32, _⟩ => ⟨S100000x12, .f32⟩
  | .hbm, ⟨33, _⟩ => ⟨S1x64, .f32⟩
  | .hbm, ⟨34, _⟩ => ⟨S1x64, .f32⟩
  | .hbm, ⟨35, _⟩ => ⟨S100000x64, .f32⟩
  | .hbm, ⟨36, _⟩ => ⟨S_, .f32⟩
  | .hbm, ⟨37, _⟩ => ⟨S2048x64, .f32⟩
  | .hbm, ⟨38, _⟩ => ⟨S100000x1, .i32⟩
  | .hbm, ⟨39, _⟩ => ⟨S2048x64, .f32⟩
  | .hbm, ⟨40, _⟩ => ⟨S_, .f32⟩
  | .hbm, ⟨41, _⟩ => ⟨S100000, .f32⟩
  | .hbm, ⟨42, _⟩ => ⟨S_, .f32⟩
  | .hbm, ⟨43, _⟩ => ⟨S2048, .f32⟩
  | .hbm, ⟨44, _⟩ => ⟨S100000x1, .i32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1, .f32⟩
  | .hbm, ⟨50, _⟩ => ⟨S2048x64, .f32⟩
  | .hbm, ⟨51, _⟩ => ⟨S2048x64, .f32⟩
  | .hbm, ⟨52, _⟩ => ⟨S2048x32, .f32⟩
  | .hbm, ⟨53, _⟩ => ⟨S1x32, .f32⟩
  | .hbm, ⟨54, _⟩ => ⟨S2048x32, .f32⟩
  | .hbm, ⟨55, _⟩ => ⟨S2048x32, .f32⟩
  | .hbm, ⟨56, _⟩ => ⟨S_, .f32⟩
  | .hbm, ⟨57, _⟩ => ⟨S2048x32, .f32⟩
  | .hbm, ⟨58, _⟩ => ⟨S2048x32, .f32⟩
  | .hbm, ⟨59, _⟩ => ⟨S2048x1, .f32⟩
  | .hbm, ⟨60, _⟩ => ⟨S1x1, .f32⟩
  | .hbm, ⟨61, _⟩ => ⟨S2048x1, .f32⟩
  | .hbm, ⟨62, _⟩ => ⟨S2048x1, .f32⟩
  | .local _ .vmem, ⟨0, _⟩ => ⟨S8000x12, .f32⟩
  | .local _ .vmem, ⟨1, _⟩ => ⟨S8000x12, .f32⟩
  | .local _ .vmem, ⟨2, _⟩ => ⟨S8000x4, .f32⟩
  | .local _ .vmem, ⟨3, _⟩ => ⟨S8000x4, .f32⟩
  | .local _ .vmem, ⟨4, _⟩ => ⟨S4x12, .f32⟩
  | .local _ .vmem, ⟨5, _⟩ => ⟨S1x12, .f32⟩
  | .local _ .vmem, ⟨6, _⟩ => ⟨S8000x12, .f32⟩
  | .local _ .vmem, ⟨7, _⟩ => ⟨S8000x12, .f32⟩
  | .local _ .vmem, ⟨8, _⟩ => ⟨S5000x12, .f32⟩
  | .local _ .vmem, ⟨9, _⟩ => ⟨S5000x12, .f32⟩
  | .local _ .vmem, ⟨10, _⟩ => ⟨S5000x12, .f32⟩
  | .local _ .vmem, ⟨11, _⟩ => ⟨S5000x12, .f32⟩
  | .local _ .vmem, ⟨12, _⟩ => ⟨S12x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S12x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S12_S1x12 : S12.ShapeCasts S1x12
  inb_S8000x4_S8000x4_0_0 : ∀ a, (![0, 0] : Fin 2 → Nat) a + S8000x4.size a ≤ S8000x4.size a
  h_S8000x4 : 0 < S8000x4.numel
  bitsLt_bf16_f32 : FTy.bits .bf16 < FTy.bits .f32
  inb_S4x12_S4x12_0_0 : ∀ a, (![0, 0] : Fin 2 → Nat) a + S4x12.size a ≤ S4x12.size a
  h_S4x12 : 0 < S4x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S8000x12 : S1x12.Broadcasts S8000x12
  inb_S8000x12_S8000x12_0_0 : ∀ a, (![0, 0] : Fin 2 → Nat) a + S8000x12.size a ≤ S8000x12.size a
  h_S8000x12 : 0 < S8000x12.numel
  shapeCasts_S8000x12_S8000x12 : S8000x12.ShapeCasts S8000x12
  bcast_S_S100000x12 : S_.BroadcastsInDim S100000x12 (![] : Fin 0 → Fin S100000x12.rank)
  shapeCasts_S64_S1x64 : S64.ShapeCasts S1x64
  inb_S5000x12_S5000x12_0_0 : ∀ a, (![0, 0] : Fin 2 → Nat) a + S5000x12.size a ≤ S5000x12.size a
  h_S5000x12 : 0 < S5000x12.numel
  shapeCasts_S5000x12_S5000x12 : S5000x12.ShapeCasts S5000x12
  inb_S12x64_S12x64_0_0 : ∀ a, (![0, 0] : Fin 2 → Nat) a + S12x64.size a ≤ S12x64.size a
  h_S12x64 : 0 < S12x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S100000x12_S3200000x1_S3200000x12_1_0_n_n_0_1_112_wf : GatherDims.WF S100000x12 S3200000x1 S3200000x12 [1] [0] [] [0] [] 1 ![1, 12]
  dot_S8000x4_S4x12_S8000x12_1_0_0_1_n_n_wf : DotDims.WF S8000x4 S4x12 S8000x12 [1] [0] [0] [1] [] []
  scatter_S100000x12_S3200000x1_S3200000x12_1_0_0_1_wf : ScatterDims.WF S100000x12 S3200000x1 S3200000x12 [1] [0] [0] 1
  dot_S5000x12_S12x64_S5000x64_1_0_0_1_n_n_wf : DotDims.WF S5000x12 S12x64 S5000x64 [1] [0] [0] [1] [] []
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x12.size a ≤ S3200000x12.size a
  hwx0_0 : ∀ i : grid0.Coords, EltTy.bits .f32 = 32 ∨ (Rect.block (s := S3200000x12) S8000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S3200000x4.size a
  hwx0_1 : ∀ i : grid0.Coords, EltTy.bits .f32 = 32 ∨ (Rect.block (s := S3200000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x12.size a ≤ S4x12.size a
  hwx0_2 : ∀ i : grid0.Coords, EltTy.bits .f32 = 32 ∨ (Rect.block (s := S4x12) S4x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x12.size a ≤ S3200000x12.size a
  hwx0_4 : ∀ i : grid0.Coords, EltTy.bits .f32 = 32 ∨ (Rect.block (s := S3200000x12) S8000x12.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x12.size a ≤ S100000x12.size a
  hwx1_0 : ∀ i : grid1.Coords, EltTy.bits .f32 = 32 ∨ (Rect.block (s := S100000x12) S5000x12.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x12.size a ≤ S100000x12.size a
  hwx1_1 : ∀ i : grid1.Coords, EltTy.bits .f32 = 32 ∨ (Rect.block (s := S100000x12) S5000x12.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12x64.size a ≤ S12x64.size a
  hwx1_2 : ∀ i : grid1.Coords, EltTy.bits .f32 = 32 ∨ (Rect.block (s := S12x64) S12x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def dot_S8000x4_S4x12_S8000x12_1_0_0_1_n_n : DotDims S8000x4 S4x12 S8000x12 where
  lhsContracting := [1]
  rhsContracting := [0]
  lhsNonContracting := [0]
  rhsNonContracting := [1]
  lhsBatch := []
  rhsBatch := []
  wf := dot_S8000x4_S4x12_S8000x12_1_0_0_1_n_n_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v10) S8000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x12.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x12.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S12x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x12 : Shape := ⟨2, ![100000, 12]⟩
abbrev S3200000x4 : Shape := ⟨2, ![3200000, 4]⟩
abbrev S4x12 : Shape := ⟨2, ![4, 12]⟩
abbrev S12 : Shape := ⟨1, ![12]⟩
abbrev S12x64 : Shape := ⟨2, ![12, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S3200000x12 : Shape := ⟨2, ![3200000, 12]⟩
abbrev S1x12 : Shape := ⟨2, ![1, 12]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S1x64 : Shape := ⟨2, ![1, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S2048x32 : Shape := ⟨2, ![2048, 32]⟩
abbrev S1x32 : Shape := ⟨2, ![1, 32]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S3200000x4, .f32⟩
  | .hbm, ⟨2, _⟩ => ⟨S4x12, .f32⟩
  | .hbm, ⟨3, _⟩ => ⟨S12, .f32⟩
  | .hbm, ⟨4, _⟩ => ⟨S12x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S2x3200000, .i32⟩
  | .hbm, ⟨13, _⟩ => ⟨S100000, .i32⟩
  | .hbm, ⟨14, _⟩ => ⟨S3200000x12, .f32⟩
  | .hbm, ⟨15, _⟩ => ⟨S1x12, .f32⟩
  | .hbm, ⟨16, _⟩ => ⟨S3200000x12, .f32⟩
  | .hbm, ⟨17, _⟩ => ⟨S3200000x12, .f32⟩
  | .hbm, ⟨18, _⟩ => ⟨S1x3200000, .i32⟩
  | .hbm, ⟨19, _⟩ => ⟨S3200000, .i32⟩
  | .hbm, ⟨20, _⟩ => ⟨S1x3200000, .i32⟩
  | .hbm, ⟨21, _⟩ => ⟨S3200000, .i32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x12, .f32⟩
  | .hbm, ⟨31, _⟩ => ⟨S3200000x12, .f32⟩
  | .hbm, ⟨32, _⟩ => ⟨S_, .f32⟩
  | .hbm, ⟨33, _⟩ => ⟨S3200000x12, .f32⟩
  | .hbm, ⟨34, _⟩ => ⟨S3200000x12, .f32⟩
  | .hbm, ⟨35, _⟩ => ⟨S_, .f32⟩
  | .hbm, ⟨36, _⟩ => ⟨S100000x12, .f32⟩
  | .hbm, ⟨37, _⟩ => ⟨S3200000x1, .i32⟩
  | .hbm, ⟨38, _⟩ => ⟨S100000x12, .f32⟩
  | .hbm, ⟨39, _⟩ => ⟨S_, .f32⟩
  | .hbm, ⟨40, _⟩ => ⟨S100000x12, .f32⟩
  | .hbm, ⟨41, _⟩ => ⟨S100000x12, .f32⟩
  | .hbm, ⟨42, _⟩ => ⟨S100000x12, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S2048x64, .f32⟩
  | .hbm, ⟨59, _⟩ => ⟨S100000x1, .i32⟩
  | .hbm, ⟨60, _⟩ => ⟨S2048x64, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S2048, .f32⟩
  | .hbm, ⟨65, _⟩ => ⟨S100000x1, .i32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048x1, .f32⟩
  | .hbm, ⟨71, _⟩ => ⟨S2048x64, .f32⟩
  | .hbm, ⟨72, _⟩ => ⟨S2048x64, .f32⟩
  | .hbm, ⟨73, _⟩ => ⟨S2048x32, .f32⟩
  | .hbm, ⟨74, _⟩ => ⟨S1x32, .f32⟩
  | .hbm, ⟨75, _⟩ => ⟨S2048x32, .f32⟩
  | .hbm, ⟨76, _⟩ => ⟨S2048x32, .f32⟩
  | .hbm, ⟨77, _⟩ => ⟨S_, .f32⟩
  | .hbm, ⟨78, _⟩ => ⟨S2048x32, .f32⟩
  | .hbm, ⟨79, _⟩ => ⟨S2048x32, .f32⟩
  | .hbm, ⟨80, _⟩ => ⟨S2048x1, .f32⟩
  | .hbm, ⟨81, _⟩ => ⟨S1x1, .f32⟩
  | .hbm, ⟨82, _⟩ => ⟨S2048x1, .f32⟩
  | .hbm, ⟨83, _⟩ => ⟨S2048x1, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_cst : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S3200000x12_0_1 : S1x12.BroadcastsInDim S3200000x12 (![0, 1] : Fin 2 → Fin S3200000x12.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x12 : S_.BroadcastsInDim S3200000x12 (![] : Fin 0 → Fin S3200000x12.rank)
  bcast_S_S100000x12 : S_.BroadcastsInDim S100000x12 (![] : Fin 0 → Fin S100000x12.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S3200000x4_S4x12_S3200000x12_1_0_0_1_n_n_wf : DotDims.WF S3200000x4 S4x12 S3200000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S100000x12_S12x64_S100000x64_1_0_0_1_n_n_wf : DotDims.WF S100000x12 S12x64 S100000x64 [1] [0] [0] [1] [] []
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def dot_S3200000x4_S4x12_S3200000x12_1_0_0_1_n_n : DotDims S3200000x4 S4x12 S3200000x12 where
  lhsContracting := [1]
  rhsContracting := [0]
  lhsNonContracting := [0]
  rhsNonContracting := [1]
  lhsBatch := []
  rhsBatch := []
  wf := dot_S3200000x4_S4x12_S3200000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KRun.lean ====
/-
  The idealized kernel's run with its result named.  @main is seven segments: host operations, the edge-message
  region, host operations, the node-MLP region, and three stretches of host operations.  The contents of every
  buffer at each boundary are a fold from the launch memory, `W0 … W7`.  Every weakly fair execution ends with
  every unscoped buffer at `W7`; read at the result buffer this names the result, read at an argument it is the
  launch contents.
-/
import proofs.«164397_j57234734187243_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run_result : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.RunValue

end
-- ==== Proof.Spec.lean ====
/-
  The two array functions the kernels compute, over the extended reals, entry by entry.

  Edge messages: for edge `e` and feature `j`, with `g` the gathered source-node rows, `a` the edge attributes, `W`
  the 4×12 encoder and `b` its bias row,
      `edgeMsg g a W b (e, j) = max (g (e, j) + ((∑ k, a (e, k) * W (k, j)) + b (0, j))) 0`.

  Node update: for node `n`, with `x` the node features, `s` the aggregated messages and two dense layers,
      `nodeHidden (n, j) = max ((∑ k, (1 * x (n, k) + s (n, k)) * W1 (k, j)) + b1 (0, j)) 0`,
      `nodeOut (n, j)    = max ((∑ k, nodeHidden (n, k) * W2 (k, j)) + b2 (0, j)) 0`.
  The literal `1` and the literal `0` are kept as the float words they are printed as; the same words appear on
  both sides of every equation below, so they are never evaluated.
-/
import Idealize.ShloMosaic.PureOps.Ideal
import Idealize.ShloMosaic.Lib.ValueIdx

noncomputable section

namespace Cert.Spec

open Idealize.ShloMosaic Idealize.ShloMosaic.ValueIdx

/-- A rank-2 array of extended reals of literal extents. -/
abbrev Arr (n0 n1 : ℕ) : Type := (⟨2, ![n0, n1]⟩ : Shape).Idx → EReal

/-- The float word of zero and of one, as extended reals. -/
abbrev zeroW : EReal := Ideal.ofBits .f32 0x00000000#32
abbrev oneW : EReal := Ideal.ofBits .f32 0x3F800000#32

/-- The message of every edge. -/
def edgeMsg (g : Arr 3200000 12) (a : Arr 3200000 4) (W : Arr 4 12) (b : Arr 1 12) : Arr 3200000 12 :=
  fun i => max (g i + ((∑ k : Fin 4, a (ix2 (i 0 : Fin 3200000) k) * W (ix2 k (i 1 : Fin 12)))
    + b (ix2 (0 : Fin 1) (i 1 : Fin 12)))) zeroW

/-- The first dense layer of the node update. -/
def nodeHidden (x s : Arr 100000 12) (W1 : Arr 12 64) (b1 : Arr 1 64) : Arr 100000 64 :=
  fun i => max ((∑ k : Fin 12, (oneW * x (ix2 (i 0 : Fin 100000) k) + s (ix2 (i 0 : Fin 100000) k)) * W1 (ix2 k (i 1 : Fin 64)))
    + b1 (ix2 (0 : Fin 1) (i 1 : Fin 64))) zeroW

/-- The second dense layer of the node update. -/
def nodeOut (x s : Arr 100000 12) (W1 : Arr 12 64) (b1 : Arr 1 64) (W2 : Arr 64 64) (b2 : Arr 1 64) : Arr 100000 64 :=
  fun i => max ((∑ k : Fin 64, nodeHidden x s W1 b1 (ix2 (i 0 : Fin 100000) k) * W2 (ix2 k (i 1 : Fin 64)))
    + b2 (ix2 (0 : Fin 1) (i 1 : Fin 64))) zeroW

end Cert.Spec

end
-- ==== Proof.EdgeBody.lean ====
/-
  The edge-message body at an index.  One block of 8000 edges: with `a` the block of edge attributes, `W` the 4×12
  encoder matrix, `b` the bias row and `g` the block of gathered source-node rows, the body stores
  `max (g + (a · W + b)) 0`.  Changes of float format are the identity on the extended reals, so entry `(p, q)` is
  `max (g p q + ((∑ k, a p k * W k q) + b 0 q)) 0`.
-/
import proofs.«164397_j57234734187243_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBody

open Idealize.ShloMosaic Idealize.ShloMosaic.TcCoe Idealize.SL.Sem Idealize.ShloMosaic.ValueIdx
open Cert.KernelIdeal Cert.KernelIdeal.Gen

theorem edge_product_l0 (j : S8000x12.Idx) (k : dot_S8000x4_S4x12_S8000x12_1_0_0_1_n_n.contr.Idx) : (dot_S8000x4_S4x12_S8000x12_1_0_0_1_n_n.lhsIdx j k 0).val = (j 0).val := by
  unfold DotDims.lhsIdx
  rw [dif_neg (show ¬(0 : Fin S8000x4.rank) ∈ dot_S8000x4_S4x12_S8000x12_1_0_0_1_n_n.lhsBatch by decide),
    dif_pos (show (0 : Fin S8000x4.rank) ∈ dot_S8000x4_S4x12_S8000x12_1_0_0_1_n_n.lhsNonContracting by decide)]
  rfl
theorem edge_product_l1 (j : S8000x12.Idx) (k : dot_S8000x4_S4x12_S8000x12_1_0_0_1_n_n.contr.Idx) : (dot_S8000x4_S4x12_S8000x12_1_0_0_1_n_n.lhsIdx j k 1).val = (k ⟨0, by decide⟩).val :=
  dot_S8000x4_S4x12_S8000x12_1_0_0_1_n_n.lhsIdx_val_of_single rfl j k
theorem edge_product_r0 (j : S8000x12.Idx) (k : dot_S8000x4_S4x12_S8000x12_1_0_0_1_n_n.contr.Idx) : (dot_S8000x4_S4x12_S8000x12_1_0_0_1_n_n.rhsIdx j k 0).val = (k ⟨0, by decide⟩).val :=
  dot_S8000x4_S4x12_S8000x12_1_0_0_1_n_n.rhsIdx_val_of_single rfl j k
theorem edge_product_r1 (j : S8000x12.Idx) (k : dot_S8000x4_S4x12_S8000x12_1_0_0_1_n_n.contr.Idx) : (dot_S8000x4_S4x12_S8000x12_1_0_0_1_n_n.rhsIdx j k 1).val = (j 1).val := by
  unfold DotDims.rhsIdx
  rw [dif_neg (show ¬(1 : Fin S4x12.rank) ∈ dot_S8000x4_S4x12_S8000x12_1_0_0_1_n_n.rhsBatch by decide),
    dif_pos (show (1 : Fin S4x12.rank) ∈ dot_S8000x4_S4x12_S8000x12_1_0_0_1_n_n.rhsNonContracting by decide)]
  rfl

/-- Entry `(p, q)` of the 8000×4 by 4×12 product into a zero accumulator is the sum over the 4 contracted
    coordinates of row `p` of the left factor times column `q` of the right. -/
theorem edge_product (l : FVec Ideal S8000x4 .bf16) (r : FVec Ideal S4x12 .bf16) (p : Fin 8000) (q : Fin 12) :
    matmul dot_S8000x4_S4x12_S8000x12_1_0_0_1_n_n none l r (constant (F := Ideal) S8000x12 .f32 0x00000000#32) (ix2 p q)
      = ∑ k : Fin 4, l (ix2 p k) * r (ix2 k q) := by
  refine (Ideal.matmul_constant_zero_apply dot_S8000x4_S4x12_S8000x12_1_0_0_1_n_n none l r (ix2 p q)).trans ?_
  rw [← Equiv.sum_comp (ValueIdx.contrEquiv1 dot_S8000x4_S4x12_S8000x12_1_0_0_1_n_n 4 rfl rfl).symm]
  refine Finset.sum_congr rfl fun k _ => ?_
  have hk := ValueIdx.contrEquiv1_symm_val dot_S8000x4_S4x12_S8000x12_1_0_0_1_n_n 4 rfl rfl k
  have el : dot_S8000x4_S4x12_S8000x12_1_0_0_1_n_n.lhsIdx (ix2 p q) ((ValueIdx.contrEquiv1 dot_S8000x4_S4x12_S8000x12_1_0_0_1_n_n 4 rfl rfl).symm k) = ix2 p k :=
    funext fun a => Fin.ext (by
      match a with
      | ⟨0, _⟩ => exact edge_product_l0 _ _
      | ⟨1, _⟩ => exact (edge_product_l1 _ _).trans hk)
  have er : dot_S8000x4_S4x12_S8000x12_1_0_0_1_n_n.rhsIdx (ix2 p q) ((ValueIdx.contrEquiv1 dot_S8000x4_S4x12_S8000x12_1_0_0_1_n_n 4 rfl rfl).symm k) = ix2 k q :=
    funext fun a => Fin.ext (by
      match a with
      | ⟨0, _⟩ => exact (edge_product_r0 _ _).trans hk
      | ⟨1, _⟩ => exact edge_product_r1 _ _)
  rw [el, er]

/-- The body's stored value at entry `(p, q)` of the block. -/
theorem edge_payload (a : FVec Ideal S8000x4 .f32) (W : FVec Ideal S4x12 .f32) (b : FVec Ideal S1x12 .f32)
    (g : FVec Ideal S8000x12 .f32) (p : Fin 8000) (q : Fin 12) :
    k0_pay1 (F := Ideal) a W b g (ix2 p q)
      = max (g (ix2 p q) + ((∑ k : Fin 4, a (ix2 p k) * W (ix2 k q)) + b (ix2 (0 : Fin 1) q)))
          (Ideal.ofBits .f32 0x00000000#32) := by
  unfold k0_pay1
  rw [shapeCast_self g, shapeCast_self b]
  show max (g (ix2 p q) + (matmul dot_S8000x4_S4x12_S8000x12_1_0_0_1_n_n none (truncf .bf16 a bitsLt_bf16_f32)
      (truncf .bf16 W bitsLt_bf16_f32) (constant (F := Ideal) S8000x12 .f32 0x00000000#32) (ix2 p q)
      + broadcastTo S8000x12 b broadcasts_S1x12_S8000x12 (ix2 p q))) (Ideal.ofBits .f32 0x00000000#32) = _
  rw [edge_product, broadcastTo_1b_ab_apply]
  rfl

end Cert.KernelIdeal.EdgeBody

end
-- ==== Proof.EdgeArray.lean ====
/-
  The edge-message region's output array.  The region runs the body at 400 grid points; point `t` reads rows
  `8000 t … 8000 t + 7999` of the gathered rows and of the edge attributes, the whole encoder matrix and bias row, and
  writes back the same rows of the output.  A block's coordinate is always index × block size + the coordinate inside
  the block, so what point `t` writes back is block `t` of ONE whole-array function, `Spec.edgeMsg` of the arrays as
  the region finds them (any contents `V`); the 400 blocks cover the output, row `r` by point `r / 8000`.
-/
import proofs.«164397_j57234734187243_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«164397_j57234734187243_1_alg».proof.Proof.Spec
import proofs.«164397_j57234734187243_1_alg».proof.Proof.EdgeBody
set_option maxRecDepth 16384

noncomputable section

namespace Cert.KernelIdeal.EdgeArray

open Idealize.ShloMosaic Idealize.ShloMosaic.TcCoe Idealize.SL.Sem Idealize.ShloMosaic.ValueIdx
open Cert.KernelIdeal Cert.KernelIdeal.Gen

open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked windows sit at block row `t`, column block `0`; the
    matrix and the bias row at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry.  If the entries the body reads sit where the output's index says — the gathered row at the same index,
    the attribute row and the matrix column at the index's two coordinates, the bias at its column — then the body's
    value is the edge message at that index. -/
theorem entry_eq (G : Spec.Arr 3200000 12) (A : Spec.Arr 3200000 4) (W : Spec.Arr 4 12) (B : Spec.Arr 1 12)
    (i gi : S3200000x12.Idx) (ai : Fin 4 → S3200000x4.Idx) (wi : Fin 4 → S4x12.Idx) (bi : S1x12.Idx)
    (h0 : gi = i) (h1 : ∀ k, ai k = ix2 (i 0 : Fin 3200000) k) (h2 : ∀ k, wi k = ix2 k (i 1 : Fin 12))
    (h3 : bi = ix2 (0 : Fin 1) (i 1 : Fin 12)) :
    max (G gi + ((∑ k : Fin 4, A (ai k) * W (wi k)) + B bi)) Spec.zeroW = Spec.edgeMsg G A W B i := by
  subst h0 h3
  simp only [h1, h2]
  rfl

/-- What point `t` writes back is block `t` of the edge messages of the arrays the region finds. -/
theorem flushed_edge (c : Dev nD) (t : Fin cfg0.N) :
    (dat0 V c).flushed 4 t = ((cfg0.win 4).blk t).view.read (Elt Ideal)
      (Spec.edgeMsg (V c main_v10) (V c main_arg1) (V c main_arg2) (V c main_v11)) := by
  show (cfg0.win 4).cut (grid0.coords t) ((dat0 V c).after 4 t) = _
  rw [after0_4]
  unfold out0_4
  rw [View.canon_unit_zero zero_offsets]
  simp only [View.ld_unit_zero (S := S8000x4) zero_offsets, View.ld_unit_zero (S := S4x12) zero_offsets,
    View.ld_unit_zero (S := S1x12) zero_offsets, View.ld_unit_zero (S := S8000x12) zero_offsets]
  obtain ⟨e00, e01, e10, e11, e20, e21, e30, e31, e40, e41⟩ := index_facts t
  refine funext fun (j : S8000x12.Idx) => ?_
  obtain ⟨p, q, rfl⟩ : ∃ (p : Fin 8000) (q : Fin 12), j = ix2 p q := ⟨j 0, j 1, eq_ix2 j⟩
  show k0_pay1 (F := Ideal) (iblk0 V c 1 t) (iblk0 V c 2 t) (iblk0 V c 3 t) (iblk0 V c 0 t) (ix2 p q)
      = Spec.edgeMsg (V c main_v10) (V c main_arg1) (V c main_arg2) (V c main_v11)
          (((cfg0.win 4).blk t).view.emb (ix2 p q))
  refine (EdgeBody.edge_payload (iblk0 V c 1 t) (iblk0 V c 2 t) (iblk0 V c 3 t)
    (iblk0 V c 0 t) p q).trans ?_
  have h0 : ((cfg0.win 0).blk t).view.emb (ix2 p q) = ((cfg0.win 4).blk t).view.emb (ix2 p q) := by
    funext a; apply Fin.ext
    match a with
    | ⟨0, _⟩ => show win0_0.index t (0 : Fin 2) * 8000 + 1 * p.val = win0_4.index t (0 : Fin 2) * 8000 + 1 * p.val; omega
    | ⟨1, _⟩ => show win0_0.index t (1 : Fin 2) * 12 + 1 * q.val = win0_4.index t (1 : Fin 2) * 12 + 1 * q.val; omega
  have h1 : ∀ k : Fin 4, ((cfg0.win 1).blk t).view.emb (ix2 p k)
      = ix2 ((((cfg0.win 4).blk t).view.emb (ix2 p q)) 0 : Fin 3200000) k := by
    intro k; funext a; apply Fin.ext
    match a with
    | ⟨0, _⟩ => show win0_1.index t (0 : Fin 2) * 8000 + 1 * p.val = win0_4.index t (0 : Fin 2) * 8000 + 1 * p.val; omega
    | ⟨1, _⟩ => show win0_1.index t (1 : Fin 2) * 4 + 1 * k.val = k.val; omega
  have h2 : ∀ k : Fin 4, ((cfg0.win 2).blk t).view.emb (ix2 k q)
      = ix2 k ((((cfg0.win 4).blk t).view.emb (ix2 p q)) 1 : Fin 12) := by
    intro k; funext a; apply Fin.ext
    match a with
    | ⟨0, _⟩ => show win0_2.index t (0 : Fin 2) * 4 + 1 * k.val = k.val; omega
    | ⟨1, _⟩ => show win0_2.index t (1 : Fin 2) * 12 + 1 * q.val = win0_4.index t (1 : Fin 2) * 12 + 1 * q.val; omega
  have h3 : ((cfg0.win 3).blk t).view.emb (ix2 (0 : Fin 1) q)
      = ix2 (0 : Fin 1) ((((cfg0.win 4).blk t).view.emb (ix2 p q)) 1 : Fin 12) := by
    funext a; apply Fin.ext
    match a with
    | ⟨0, _⟩ => show win0_3.index t (0 : Fin 2) * 1 + 1 * 0 = 0; omega
    | ⟨1, _⟩ => show win0_3.index t (1 : Fin 2) * 12 + 1 * q.val = win0_4.index t (1 : Fin 2) * 12 + 1 * q.val; omega
  exact entry_eq (V c main_v10) (V c main_arg1) (V c main_arg2) (V c main_v11)
    (((cfg0.win 4).blk t).view.emb (ix2 p q)) (((cfg0.win 0).blk t).view.emb (ix2 p q))
    (fun k => ((cfg0.win 1).blk t).view.emb (ix2 p k)) (fun k => ((cfg0.win 2).blk t).view.emb (ix2 k q))
    (((cfg0.win 3).blk t).view.emb (ix2 (0 : Fin 1) q)) h0 h1 h2 h3

/-- An index of the output is in point `t`'s block iff each coordinate is in the block's range on its axis. -/
theorem mem_block (t : Fin cfg0.N) (i : S3200000x12.Idx) :
    i ∈ ((cfg0.win 4).blk t).view.set ↔ ∀ a : Fin 2, win0_4.index t a * S8000x12.size a ≤ (i a).val
      ∧ (i a).val < win0_4.index t a * S8000x12.size a + S8000x12.size a := by
  show i ∈ ((View.whole main_v12).slice (win0_4.rect t)).set ↔ _
  rw [View.set_slice_whole, Rect.mem_set_unit]
  exact Iff.rfl

/-- Every entry of the output is in some point's block: row `r` in the block of point `r / 8000`. -/
theorem cover_edge (i : S3200000x12.Idx) :
    ∃ t : Fin cfg0.N, (cfg0.win 4).flush t = true ∧ i ∈ ((cfg0.win 4).blk t).view.set := by
  have hi0 : (i 0).val < 3200000 := (i 0).isLt
  have hi1 : (i 1).val < 12 := (i 1).isLt
  have hN : cfg0.N = 400 := N_0
  have ht : (i 0).val / 8000 < cfg0.N := by rw [hN]; omega
  obtain ⟨-, -, -, -, -, -, -, -, e40, e41⟩ := index_facts ⟨(i 0).val / 8000, ht⟩
  refine ⟨⟨(i 0).val / 8000, ht⟩, flush0_4 _, ?_⟩
  rw [mem_block]
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    have e : win0_4.index ⟨(i 0).val / 8000, ht⟩ (0 : Fin 2) = (i 0).val / 8000 := e40
    omega
  | ⟨1, _⟩ =>
    show win0_4.index ⟨(i 0).val / 8000, ht⟩ (1 : Fin 2) * 12 ≤ (i 1).val
      ∧ (i 1).val < win0_4.index ⟨(i 0).val / 8000, ht⟩ (1 : Fin 2) * 12 + 12
    omega

/-- The output array after the region: the edge messages of the arrays the region finds. -/
theorem final_edge (c : Dev nD) :
    (dat0 V c).arrAt 4 cfg0.N
      = Spec.edgeMsg (V c main_v10) (V c main_arg1) (V c main_arg2) (V c main_v11) :=
  (dat0 V c).arrAt_eq_of_cover 4 _ (fun t _ => flushed_edge V c t) cover_edge

end Cert.KernelIdeal.EdgeArray

end
-- ==== Proof.NodeBody.lean ====
/-
  The node-update body at an index.  One block of 5000 nodes: with `x` the block of node features, `s` the block of
  aggregated messages, `W1, b1` and `W2, b2` the two dense layers, the body stores
  `max (max ((1 * x + s) · W1 + b1) 0 · W2 + b2) 0`.  Changes of float format are the identity on the extended
  reals, and a product into a zero accumulator is the plain sum, so entry `(p, q)` is the second layer's sum over
  the 64 hidden coordinates of row `p`, each the first layer's sum over the 12 input coordinates.
-/
import proofs.«164397_j57234734187243_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«164397_j57234734187243_1_alg».proof.Proof.Spec
set_option maxRecDepth 16384

noncomputable section

namespace Cert.KernelIdeal.NodeBody

open Idealize.ShloMosaic Idealize.ShloMosaic.TcCoe Idealize.SL.Sem Idealize.ShloMosaic.ValueIdx
open Cert.KernelIdeal Cert.KernelIdeal.Gen

theorem node_product1_l0 (j : S5000x64.Idx) (k : dot_S5000x12_S12x64_S5000x64_1_0_0_1_n_n.contr.Idx) : (dot_S5000x12_S12x64_S5000x64_1_0_0_1_n_n.lhsIdx j k 0).val = (j 0).val := by
  unfold DotDims.lhsIdx
  rw [dif_neg (show ¬(0 : Fin S5000x12.rank) ∈ dot_S5000x12_S12x64_S5000x64_1_0_0_1_n_n.lhsBatch by decide),
    dif_pos (show (0 : Fin S5000x12.rank) ∈ dot_S5000x12_S12x64_S5000x64_1_0_0_1_n_n.lhsNonContracting by decide)]
  rfl
theorem node_product1_l1 (j : S5000x64.Idx) (k : dot_S5000x12_S12x64_S5000x64_1_0_0_1_n_n.contr.Idx) : (dot_S5000x12_S12x64_S5000x64_1_0_0_1_n_n.lhsIdx j k 1).val = (k ⟨0, by decide⟩).val :=
  dot_S5000x12_S12x64_S5000x64_1_0_0_1_n_n.lhsIdx_val_of_single rfl j k
theorem node_product1_r0 (j : S5000x64.Idx) (k : dot_S5000x12_S12x64_S5000x64_1_0_0_1_n_n.contr.Idx) : (dot_S5000x12_S12x64_S5000x64_1_0_0_1_n_n.rhsIdx j k 0).val = (k ⟨0, by decide⟩).val :=
  dot_S5000x12_S12x64_S5000x64_1_0_0_1_n_n.rhsIdx_val_of_single rfl j k
theorem node_product1_r1 (j : S5000x64.Idx) (k : dot_S5000x12_S12x64_S5000x64_1_0_0_1_n_n.contr.Idx) : (dot_S5000x12_S12x64_S5000x64_1_0_0_1_n_n.rhsIdx j k 1).val = (j 1).val := by
  unfold DotDims.rhsIdx
  rw [dif_neg (show ¬(1 : Fin S12x64.rank) ∈ dot_S5000x12_S12x64_S5000x64_1_0_0_1_n_n.rhsBatch by decide),
    dif_pos (show (1 : Fin S12x64.rank) ∈ dot_S5000x12_S12x64_S5000x64_1_0_0_1_n_n.rhsNonContracting by decide)]
  rfl

/-- Entry `(p, q)` of the 5000×12 by 12×64 product into a zero accumulator is the sum over the 12 contracted
    coordinates of row `p` of the left factor times column `q` of the right. -/
theorem node_product1 (l : FVec Ideal S5000x12 .bf16) (r : FVec Ideal S12x64 .bf16) (p : Fin 5000) (q : Fin 64) :
    matmul dot_S5000x12_S12x64_S5000x64_1_0_0_1_n_n none l r (constant (F := Ideal) S5000x64 .f32 0x00000000#32) (ix2 p q)
      = ∑ k : Fin 12, l (ix2 p k) * r (ix2 k q) := by
  refine (Ideal.matmul_constant_zero_apply dot_S5000x12_S12x64_S5000x64_1_0_0_1_n_n none l r (ix2 p q)).trans ?_
  rw [← Equiv.sum_comp (ValueIdx.contrEquiv1 dot_S5000x12_S12x64_S5000x64_1_0_0_1_n_n 12 rfl rfl).symm]
  refine Finset.sum_congr rfl fun k _ => ?_
  have hk := ValueIdx.contrEquiv1_symm_val dot_S5000x12_S12x64_S5000x64_1_0_0_1_n_n 12 rfl rfl k
  have el : dot_S5000x12_S12x64_S5000x64_1_0_0_1_n_n.lhsIdx (ix2 p q) ((ValueIdx.contrEquiv1 dot_S5000x12_S12x64_S5000x64_1_0_0_1_n_n 12 rfl rfl).symm k) = ix2 p k :=
    funext fun a => Fin.ext (by
      match a with
      | ⟨0, _⟩ => exact node_product1_l0 _ _
      | ⟨1, _⟩ => exact (node_product1_l1 _ _).trans hk)
  have er : dot_S5000x12_S12x64_S5000x64_1_0_0_1_n_n.rhsIdx (ix2 p q) ((ValueIdx.contrEquiv1 dot_S5000x12_S12x64_S5000x64_1_0_0_1_n_n 12 rfl rfl).symm k) = ix2 k q :=
    funext fun a => Fin.ext (by
      match a with
      | ⟨0, _⟩ => exact (node_product1_r0 _ _).trans hk
      | ⟨1, _⟩ => exact node_product1_r1 _ _)
  rw [el, er]

theorem node_product2_l0 (j : S5000x64.Idx) (k : dot_S5000x64_S64x64_S5000x64_1_0_0_1_n_n.contr.Idx) : (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem node_product2_l1 (j : S5000x64.Idx) (k : dot_S5000x64_S64x64_S5000x64_1_0_0_1_n_n.contr.Idx) : (dot_S5000x64_S64x64_S5000x64_1_0_0_1_n_n.lhsIdx j k 1).val = (k ⟨0, by decide⟩).val :=
  dot_S5000x64_S64x64_S5000x64_1_0_0_1_n_n.lhsIdx_val_of_single rfl j k
theorem node_product2_r0 (j : S5000x64.Idx) (k : dot_S5000x64_S64x64_S5000x64_1_0_0_1_n_n.contr.Idx) : (dot_S5000x64_S64x64_S5000x64_1_0_0_1_n_n.rhsIdx j k 0).val = (k ⟨0, by decide⟩).val :=
  dot_S5000x64_S64x64_S5000x64_1_0_0_1_n_n.rhsIdx_val_of_single rfl j k
theorem node_product2_r1 (j : S5000x64.Idx) (k : dot_S5000x64_S64x64_S5000x64_1_0_0_1_n_n.contr.Idx) : (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry `(p, q)` of the 5000×64 by 64×64 product into a zero accumulator is the sum over the 64 contracted
    coordinates of row `p` of the left factor times column `q` of the right. -/
theorem node_product2 (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k :=
    funext fun a => Fin.ext (by
      match a with
      | ⟨0, _⟩ => exact node_product2_l0 _ _
      | ⟨1, _⟩ => exact (node_product2_l1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q :=
    funext fun a => Fin.ext (by
      match a with
      | ⟨0, _⟩ => exact (node_product2_r0 _ _).trans hk
      | ⟨1, _⟩ => exact node_product2_r1 _ _)
  rw [el, er]

/-- The first layer of the body, in the body's own operations. -/
def hiddenBlock (x s : FVec Ideal S5000x12 .f32) (W1 : FVec Ideal S12x64 .f32) (b1 : FVec Ideal S1x64 .f32) :
    FVec Ideal S5000x64 .f32 :=
  maximumf
    (addf
      (matmul dot_S5000x12_S12x64_S5000x64_1_0_0_1_n_n none
        (truncf .bf16 (addf (mulf (broadcast S5000x12 (Scalar.ofBits .f32 0x3F800000#32)) x)
          (shapeCast S5000x12 s shapeCasts_S5000x12_S5000x12)) bitsLt_bf16_f32)
        (truncf .bf16 W1 bitsLt_bf16_f32) (constant S5000x64 .f32 0x00000000#32))
      (broadcastTo S5000x64 (shapeCast S1x64 b1 shapeCasts_S1x64_S1x64) broadcasts_S1x64_S5000x64))
    (broadcast S5000x64 (Scalar.ofBits .f32 0x00000000#32))

/-- The body's stored value is the second layer over the first. -/
theorem payload_split (x s : FVec Ideal S5000x12 .f32) (W1 : FVec Ideal S12x64 .f32) (b1 : FVec Ideal S1x64 .f32)
    (W2 : FVec Ideal S64x64 .f32) (b2 : FVec Ideal S1x64 .f32) :
    k1_pay1 (F := Ideal) x s W1 b1 W2 b2
      = maximumf
          (addf
            (matmul dot_S5000x64_S64x64_S5000x64_1_0_0_1_n_n none (truncf .bf16 (hiddenBlock x s W1 b1) bitsLt_bf16_f32)
              (truncf .bf16 W2 bitsLt_bf16_f32) (constant S5000x64 .f32 0x00000000#32))
            (broadcastTo S5000x64 (shapeCast S1x64 b2 shapeCasts_S1x64_S1x64) broadcasts_S1x64_S5000x64))
          (broadcast S5000x64 (Scalar.ofBits .f32 0x00000000#32)) := rfl

/-- The first layer at entry `(p, k)` of the block. -/
theorem hidden_apply (x s : FVec Ideal S5000x12 .f32) (W1 : FVec Ideal S12x64 .f32) (b1 : FVec Ideal S1x64 .f32)
    (p : Fin 5000) (k : Fin 64) :
    hiddenBlock x s W1 b1 (ix2 p k)
      = max ((∑ k' : Fin 12, (Spec.oneW * x (ix2 p k') + s (ix2 p k')) * W1 (ix2 k' k)) + b1 (ix2 (0 : Fin 1) k))
          Spec.zeroW := by
  unfold hiddenBlock
  rw [shapeCast_self s, shapeCast_self b1]
  show max (matmul dot_S5000x12_S12x64_S5000x64_1_0_0_1_n_n none
        (truncf .bf16 (addf (mulf (broadcast S5000x12 (Scalar.ofBits .f32 0x3F800000#32)) x) s) bitsLt_bf16_f32)
        (truncf .bf16 W1 bitsLt_bf16_f32) (constant (F := Ideal) S5000x64 .f32 0x00000000#32) (ix2 p k)
      + broadcastTo S5000x64 b1 broadcasts_S1x64_S5000x64 (ix2 p k)) (Ideal.ofBits .f32 0x00000000#32) = _
  rw [node_product1, broadcastTo_1b_ab_apply]
  rfl

/-- The body's stored value at entry `(p, q)` of the block. -/
theorem node_payload (x s : FVec Ideal S5000x12 .f32) (W1 : FVec Ideal S12x64 .f32) (b1 : FVec Ideal S1x64 .f32)
    (W2 : FVec Ideal S64x64 .f32) (b2 : FVec Ideal S1x64 .f32) (p : Fin 5000) (q : Fin 64) :
    k1_pay1 (F := Ideal) x s W1 b1 W2 b2 (ix2 p q)
      = max ((∑ k : Fin 64,
            max ((∑ k' : Fin 12, (Spec.oneW * x (ix2 p k') + s (ix2 p k')) * W1 (ix2 k' k)) + b1 (ix2 (0 : Fin 1) k))
              Spec.zeroW * W2 (ix2 k q)) + b2 (ix2 (0 : Fin 1) q)) Spec.zeroW := by
  rw [payload_split, shapeCast_self b2]
  show max (matmul dot_S5000x64_S64x64_S5000x64_1_0_0_1_n_n none (truncf .bf16 (hiddenBlock x s W1 b1) bitsLt_bf16_f32)
        (truncf .bf16 W2 bitsLt_bf16_f32) (constant (F := Ideal) S5000x64 .f32 0x00000000#32) (ix2 p q)
      + broadcastTo S5000x64 b2 broadcasts_S1x64_S5000x64 (ix2 p q)) (Ideal.ofBits .f32 0x00000000#32) = _
  rw [node_product2, broadcastTo_1b_ab_apply]
  show max ((∑ k : Fin 64, hiddenBlock x s W1 b1 (ix2 p k) * W2 (ix2 k q)) + b2 (ix2 (0 : Fin 1) q)) Spec.zeroW = _
  simp only [hidden_apply]

end Cert.KernelIdeal.NodeBody

end
-- ==== Proof.NodeArray.lean ====
/-
  The node-update region's output array.  The region runs the body at 20 grid points; point `t` reads rows
  `5000 t … 5000 t + 4999` of the node features and of the aggregated messages, the two weight matrices and bias rows
  whole, and writes back the same rows of the output.  What point `t` writes back is block `t` of ONE whole-array
  function, `Spec.nodeOut` of the arrays as the region finds them (any contents `V`); the 20 blocks cover the output, row `r` by point
  `r / 5000`.
-/
import proofs.«164397_j57234734187243_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«164397_j57234734187243_1_alg».proof.Proof.Spec
import proofs.«164397_j57234734187243_1_alg».proof.Proof.NodeBody
set_option maxRecDepth 16384

noncomputable section

namespace Cert.KernelIdeal.NodeArray

open Idealize.ShloMosaic Idealize.ShloMosaic.TcCoe Idealize.SL.Sem Idealize.ShloMosaic.ValueIdx
open Cert.KernelIdeal Cert.KernelIdeal.Gen

open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked windows sit at block row `t`, column block `0`; the
    weights and the bias rows at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One entry.  If the entries the body reads sit where the output's index says — the feature and message rows at the
    index's row, the first layer whole, the second layer's column and bias at the index's column — then the body's
    value is the node update at that index. -/
theorem entry_eq (X S : Spec.Arr 100000 12) (W1 : Spec.Arr 12 64) (B1 : Spec.Arr 1 64) (W2 : Spec.Arr 64 64)
    (B2 : Spec.Arr 1 64) (i : S100000x64.Idx) (xi si : Fin 12 → S100000x12.Idx) (w1i : Fin 12 → Fin 64 → S12x64.Idx)
    (b1i : Fin 64 → S1x64.Idx) (w2i : Fin 64 → S64x64.Idx) (b2i : S1x64.Idx)
    (hx : ∀ k', xi k' = ix2 (i 0 : Fin 100000) k') (hs : ∀ k', si k' = ix2 (i 0 : Fin 100000) k')
    (hw1 : ∀ k' k, w1i k' k = ix2 k' k) (hb1 : ∀ k, b1i k = ix2 (0 : Fin 1) k)
    (hw2 : ∀ k, w2i k = ix2 k (i 1 : Fin 64)) (hb2 : b2i = ix2 (0 : Fin 1) (i 1 : Fin 64)) :
    max ((∑ k : Fin 64,
          max ((∑ k' : Fin 12, (Spec.oneW * X (xi k') + S (si k')) * W1 (w1i k' k)) + B1 (b1i k)) Spec.zeroW
            * W2 (w2i k)) + B2 b2i) Spec.zeroW
      = Spec.nodeOut X S W1 B1 W2 B2 i := by
  subst hb2
  simp only [hx, hs, hw1, hb1, hw2]
  rfl

/-- What point `t` writes back is block `t` of the node update of the arrays the region finds. -/
theorem flushed_node (c : Dev nD) (t : Fin cfg1.N) :
    (dat1 V c).flushed 6 t = ((cfg1.win 6).blk t).view.read (Elt Ideal)
      (Spec.nodeOut (V c main_arg0) (V c main_v15) (V c main_arg4) (V c main_v16)
        (V c main_arg6) (V c main_v17)) := by
  show (cfg1.win 6).cut (grid1.coords t) ((dat1 V c).after 6 t) = _
  rw [after1_6]
  unfold out1_6
  rw [View.canon_unit_zero zero_offsets]
  simp only [View.ld_unit_zero (S := S5000x12) zero_offsets, View.ld_unit_zero (S := S12x64) zero_offsets,
    View.ld_unit_zero (S := S1x64) zero_offsets, View.ld_unit_zero (S := S64x64) zero_offsets,
    View.ld_unit_zero (S := S5000x64) zero_offsets]
  obtain ⟨e00, e01, e10, e11, e20, e21, e30, e31, e40, e41, e50, e51, e60, e61⟩ := index_facts t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
      = Spec.nodeOut (V c main_arg0) (V c main_v15) (V c main_arg4) (V c main_v16)
          (V c main_arg6) (V c main_v17) (((cfg1.win 6).blk t).view.emb (ix2 p q))
  refine (NodeBody.node_payload (iblk1 V c 0 t) (iblk1 V c 1 t) (iblk1 V c 2 t) (iblk1 V c 3 t) (iblk1 V c 4 t) (iblk1 V c 5 t) p q).trans ?_
  have hx : ∀ k' : Fin 12, ((cfg1.win 0).blk t).view.emb (ix2 p k')
      = ix2 ((((cfg1.win 6).blk t).view.emb (ix2 p q)) 0 : Fin 100000) k' := by
    intro k'; funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 12 + 1 * k'.val = k'.val; omega
  have hs : ∀ k' : Fin 12, ((cfg1.win 1).blk t).view.emb (ix2 p k')
      = ix2 ((((cfg1.win 6).blk t).view.emb (ix2 p q)) 0 : Fin 100000) k' := by
    intro k'; funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 12 + 1 * k'.val = k'.val; omega
  have hw1 : ∀ (k' : Fin 12) (k : Fin 64), ((cfg1.win 2).blk t).view.emb (ix2 k' k) = ix2 k' k := by
    intro k' k; funext a; apply Fin.ext
    match a with
    | ⟨0, _⟩ => show win1_2.index t (0 : Fin 2) * 12 + 1 * k'.val = k'.val; omega
    | ⟨1, _⟩ => show win1_2.index t (1 : Fin 2) * 64 + 1 * k.val = k.val; omega
  have hb1 : ∀ k : Fin 64, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 64 + 1 * k.val = k.val; omega
  have hw2 : ∀ k : Fin 64, ((cfg1.win 4).blk t).view.emb (ix2 k q) = ix2 k ((((cfg1.win 6).blk t).view.emb (ix2 p q)) 1 : Fin 64) := by
    intro k; funext a; apply Fin.ext
    match a with
    | ⟨0, _⟩ => show win1_4.index t (0 : Fin 2) * 64 + 1 * k.val = k.val; omega
    | ⟨1, _⟩ => show win1_4.index t (1 : Fin 2) * 64 + 1 * q.val = win1_6.index t (1 : Fin 2) * 64 + 1 * q.val; omega
  have hb2 : ((cfg1.win 5).blk t).view.emb (ix2 (0 : Fin 1) q) = ix2 (0 : Fin 1) ((((cfg1.win 6).blk t).view.emb (ix2 p q)) 1 : Fin 64) := by
    funext a; apply Fin.ext
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega
  exact entry_eq (V c main_arg0) (V c main_v15) (V c main_arg4) (V c main_v16)
    (V c main_arg6) (V c main_v17) (((cfg1.win 6).blk t).view.emb (ix2 p q))
    (fun k' => ((cfg1.win 0).blk t).view.emb (ix2 p k')) (fun k' => ((cfg1.win 1).blk t).view.emb (ix2 p k'))
    (fun k' k => ((cfg1.win 2).blk t).view.emb (ix2 k' k)) (fun k => ((cfg1.win 3).blk t).view.emb (ix2 (0 : Fin 1) k))
    (fun k => ((cfg1.win 4).blk t).view.emb (ix2 k q)) (((cfg1.win 5).blk t).view.emb (ix2 (0 : Fin 1) q)) hx hs hw1 hb1 hw2 hb2

/-- An index of the output is in point `t`'s block iff each coordinate is in the block's range on its axis. -/
theorem mem_block (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v18).slice (win1_6.rect t)).set ↔ _
  rw [View.set_slice_whole, Rect.mem_set_unit]
  exact Iff.rfl

/-- Every entry of the output is in some point's block: row `r` in the block of point `r / 5000`. -/
theorem cover_node (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, -, -, e60, e61⟩ := index_facts ⟨(i 0).val / 5000, ht⟩
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    have e : win1_6.index ⟨(i 0).val / 5000, ht⟩ (0 : Fin 2) = (i 0).val / 5000 := e60
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    omega

/-- The output array after the region: the node update of the arrays the region finds. -/
theorem final_node (c : Dev nD) :
    (dat1 V c).arrAt 6 cfg1.N
      = Spec.nodeOut (V c main_arg0) (V c main_v15) (V c main_arg4) (V c main_v16)
          (V c main_arg6) (V c main_v17) :=
  (dat1 V c).arrAt_eq_of_cover 6 _ (fun t _ => flushed_node V c t) cover_node

end Cert.KernelIdeal.NodeArray

end
-- ==== Proof.RefValue.lean ====
/-
  The reference's stages are the specification's functions.  Read at an index, the reference's edge-message stage is
  `max (gathered (e, j) + ((∑ k, a (e, k) * W (k, j)) + b j)) 0` and its node-update stage is the two dense layers
  over `1 * x + aggregated`: the same entries `Spec.edgeMsg` and `Spec.nodeOut` name.  The kernel passes each bias
  as a `[1, n]` row made from the `[n]` vector by a reshape; entry `(0, j)` of that row is entry `j` of the vector,
  which is what the reference's two broadcasts read.
-/
import proofs.«164397_j57234734187243_1_alg».proof.KernelIdeal
import proofs.«164397_j57234734187243_1_alg».proof.Proof.Gen.ReferenceIdeal.Read
import proofs.«164397_j57234734187243_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Read

/-- Entry `(0, j)` of a 12-vector reshaped to a `[1, 12]` row is entry `j` of the vector. -/
theorem row12 (v : (⟨1, ![12]⟩ : Shape).Idx → EReal) (h : Cert.KernelIdeal.S12.ShapeCasts Cert.KernelIdeal.S1x12) (j : Fin 12) :
    shapeCast Cert.KernelIdeal.S1x12 v h (ix2 (0 : Fin 1) j) = v (ix1 j) :=
  shapeCast_a_1a_apply v h 0 j

/-- Entry `(0, j)` of a 64-vector reshaped to a `[1, 64]` row is entry `j` of the vector. -/
theorem row64 (v : (⟨1, ![64]⟩ : Shape).Idx → EReal) (h : Cert.KernelIdeal.S64.ShapeCasts Cert.KernelIdeal.S1x64) (j : Fin 64) :
    shapeCast Cert.KernelIdeal.S1x64 v h (ix2 (0 : Fin 1) j) = v (ix1 j) :=
  shapeCast_a_1a_apply v h 0 j

variable (x0 : (⟨S100000x12, .f32⟩ : BufTy).Contents (Elt Ideal)) (x1 : (⟨S3200000x4, .f32⟩ : BufTy).Contents (Elt Ideal))
  (x2 : (⟨S4x12, .f32⟩ : BufTy).Contents (Elt Ideal)) (x3 : (⟨S12, .f32⟩ : BufTy).Contents (Elt Ideal))
  (x4 : (⟨S12x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x12 : (⟨S2x3200000, .i32⟩ : BufTy).Contents (Elt Ideal))
  (h12 : Cert.KernelIdeal.S12.ShapeCasts Cert.KernelIdeal.S1x12) (h64 h64' : Cert.KernelIdeal.S64.ShapeCasts Cert.KernelIdeal.S1x64)

/-- The reference's edge-message stage is `Spec.edgeMsg` of its gathered rows, the edge attributes, the encoder and
    the bias as a row. -/
theorem edge_stage :
    val_main_v16 (F := Ideal) x0 x1 x2 x3 x12
      = Spec.edgeMsg (val_main_v14 (F := Ideal) x0 x12) x1 x2 (shapeCast Cert.KernelIdeal.S1x12 x3 h12) := by
  funext i
  have el : ∀ k, lidx_main_v0 i k = ix2 (i 0 : Fin 3200000) k := fun k => funext fun a => by
    match a with
    | ⟨0, _⟩ => rfl
    | ⟨1, _⟩ => rfl
  have er : ∀ k, ridx_main_v0 i k = ix2 k (i 1 : Fin 12) := fun k => funext fun a => by
    match a with
    | ⟨0, _⟩ => rfl
    | ⟨1, _⟩ => rfl
  have eb : idx_main_v1 (idx_main_v2 i) = ix1 (i 1 : Fin 12) := funext fun a => by
    match a with
    | ⟨0, _⟩ => rfl
  simp only [val_main_v16_apply, val_main_v15_apply, val_main_v3_apply, val_main_v0_apply, val_main_v2_apply,
    val_main_v1_apply, val_main_call0_v0_apply, val_main_call0_cst_apply, el, er, eb]
  unfold Spec.edgeMsg
  rw [row12 x3 h12 (i 1)]
  rfl

/-- The reference's node-update stage is `Spec.nodeOut` of the node features, its aggregated messages, and the two
    dense layers with their biases as rows. -/
theorem node_stage :
    val_main_v32 (F := Ideal) x0 x1 x2 x3 x4 x5 x6 x7 x12
      = Spec.nodeOut x0 (val_main_v19 (F := Ideal) x0 x1 x2 x3 x12) x4
          (shapeCast Cert.KernelIdeal.S1x64 x5 h64) x6 (shapeCast Cert.KernelIdeal.S1x64 x7 h64') := by
  funext i
  have el2 : ∀ k, lidx_main_v28 i k = ix2 (i 0 : Fin 100000) k := fun k => funext fun a => by
    match a with
    | ⟨0, _⟩ => rfl
    | ⟨1, _⟩ => rfl
  have er2 : ∀ k, ridx_main_v28 i k = ix2 k (i 1 : Fin 64) := fun k => funext fun a => by
    match a with
    | ⟨0, _⟩ => rfl
    | ⟨1, _⟩ => rfl
  have eb2 : idx_main_v29 (idx_main_v30 i) = ix1 (i 1 : Fin 64) := funext fun a => by
    match a with
    | ⟨0, _⟩ => rfl
  have el1 : ∀ (j : S100000x64.Idx) k', lidx_main_v23 j k' = ix2 (j 0 : Fin 100000) k' := fun j k' => funext fun a => by
    match a with
    | ⟨0, _⟩ => rfl
    | ⟨1, _⟩ => rfl
  have er1 : ∀ (j : S100000x64.Idx) k', ridx_main_v23 j k' = ix2 k' (j 1 : Fin 64) := fun j k' => funext fun a => by
    match a with
    | ⟨0, _⟩ => rfl
    | ⟨1, _⟩ => rfl
  have eb1 : ∀ j : S100000x64.Idx, idx_main_v24 (idx_main_v25 j) = ix1 (j 1 : Fin 64) := fun j => funext fun a => by
    match a with
    | ⟨0, _⟩ => rfl
  simp only [val_main_v32_apply, val_main_v31_apply, val_main_v28_apply, val_main_v30_apply, val_main_v29_apply,
    val_main_call2_v0_apply, val_main_call2_cst_apply, val_main_v27_apply, val_main_v26_apply, val_main_v23_apply,
    val_main_v25_apply, val_main_v24_apply, val_main_call1_v0_apply, val_main_call1_cst_apply, val_main_v22_apply,
    val_main_v21_apply, val_main_v20_apply, val_main_cst_1_apply]
  simp only [el1, er1, eb1]
  simp only [el2, er2, eb2]
  unfold Spec.nodeOut Spec.nodeHidden
  simp only [row64 x5 h64]
  rw [row64 x7 h64' (i 1)]
  rfl

end Cert.ReferenceIdeal.RefValue

end
-- ==== Proof.Fold.lean ====
/-
  The kernel's result read back through the run.  The contents of every buffer at each boundary of @main are a fold
  from the launch memory.  Read at the buffers that matter:
    * entering the edge-message region, the gathered rows are the reference's gather of the node features by the
      normalised source indices, the bias row is the bias vector reshaped, the other operands are as launched;
    * leaving it, the output is the edge messages (the region's array lemma), which is the reference's edge stage;
    * entering the node-update region, the aggregated messages are the same scatter-add of those messages by the
      destination indices that the reference makes, the bias rows are reshapes, the other operands as launched;
    * leaving it, the output is the node update, which is the reference's node stage;
    * the pooling and the head are the same host operations on both sides, applied to equal arrays.
-/
import proofs.«164397_j57234734187243_1_alg».proof.Proof.EdgeArray
import proofs.«164397_j57234734187243_1_alg».proof.Proof.NodeArray
import proofs.«164397_j57234734187243_1_alg».proof.Proof.RefValue
import Idealize.ShloMosaic.Lib.StableHlo.Run

set_option maxRecDepth 16384

noncomputable section

namespace Cert.KernelIdeal.Fold

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-! ## Entering the edge-message region -/

/-- The gathered rows: the reference's gather. -/
theorem entry0_gathered : V1 m ρ c main_v10 = Cert.ReferenceIdeal.Read.val_main_v14 (F := Ideal) (m ((c : Thread nD τ).loc main_arg0)) (m ((c : Thread nD τ).loc main_arg12)) := by
  show StableHlo.after hostOps0 (W0 m ρ c) (Proc.devRef .tc main_v10) = _
  after_results <;> rfl

/-- The bias row: the bias vector reshaped. -/
theorem entry0_bias : V1 m ρ c main_v11 = shapeCast S1x12 (m ((c : Thread nD τ).loc main_arg3)) shapeCasts_S12_S1x12 := by
  show StableHlo.after hostOps0 (W0 m ρ c) (Proc.devRef .tc main_v11) = _
  after_results <;> rfl

theorem entry0_attr : V1 m ρ c main_arg1 = (m ((c : Thread nD τ).loc main_arg1)) := by
  show StableHlo.after hostOps0 (W0 m ρ c) (Proc.devRef .tc main_arg1) = _
  after_results <;> rfl

theorem entry0_enc : V1 m ρ c main_arg2 = (m ((c : Thread nD τ).loc main_arg2)) := by
  show StableHlo.after hostOps0 (W0 m ρ c) (Proc.devRef .tc main_arg2) = _
  after_results <;> rfl

/-! ## Leaving the edge-message region -/

/-- The region's output is the reference's edge-message stage. -/
theorem exit0_messages :
    W2 m ρ c (Proc.devRef .tc main_v12) = Cert.ReferenceIdeal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg12)) := by
  refine (W2_arr m ρ c 4).trans ((EdgeArray.final_edge (V1 m ρ) c).trans ?_)
  rw [entry0_gathered, entry0_attr, entry0_enc, entry0_bias]
  exact (Cert.ReferenceIdeal.RefValue.edge_stage _ _ _ _ _ _).symm

/-- The destination indices are untouched by the region: the reference's. -/
theorem exit0_dst : W2 m ρ c (Proc.devRef .tc main_v3) = Cert.ReferenceIdeal.Read.val_main_v7 (F := Ideal) (m ((c : Thread nD τ).loc main_arg12)) :=
  (W2_of_ne m ρ c main_v3 (by decide)).trans (by
    show StableHlo.after hostOps0 (W0 m ρ c) (Proc.devRef .tc main_v3) = _
    after_results <;> rfl)

/-! Arguments the region does not stage are as launched. -/
theorem exit0_arg0 : W2 m ρ c (Proc.devRef .tc main_arg0) = (m ((c : Thread nD τ).loc main_arg0)) :=
  (W2_of_ne m ρ c main_arg0 (by decide)).trans (by
    show StableHlo.after hostOps0 (W0 m ρ c) (Proc.devRef .tc main_arg0) = _
    after_results <;> rfl)
theorem exit0_arg4 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results <;> rfl)
theorem exit0_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results <;> rfl)
theorem exit0_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results <;> rfl)
theorem exit0_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)
theorem exit0_arg8 : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)
theorem exit0_arg9 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)
theorem exit0_arg10 : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results <;> rfl)
theorem exit0_arg11 : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results <;> rfl)
theorem exit0_arg13 : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results <;> rfl)

/-! ## Entering the node-update region -/

/-- The aggregated messages: the reference's scatter-add of its edge-message stage by its destination indices. -/
theorem entry1_agg :
    V3 m ρ c main_v15 = Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg12)) := by
  show StableHlo.after hostOps1 (W2 m ρ c) (Proc.devRef .tc main_v15) = _
  after_results
  rw [exit0_messages, exit0_dst]
  rfl

/-- The node features, as launched. -/
theorem entry1_x : V3 m ρ c main_arg0 = (m ((c : Thread nD τ).loc main_arg0)) := by
  show StableHlo.after hostOps1 (W2 m ρ c) (Proc.devRef .tc main_arg0) = _
  after_results
  exact exit0_arg0 m ρ c

/-- The first layer's weights, as launched. -/
theorem entry1_w1 : V3 m ρ c main_arg4 = (m ((c : Thread nD τ).loc main_arg4)) := by
  show StableHlo.after hostOps1 (W2 m ρ c) (Proc.devRef .tc main_arg4) = _
  after_results
  exact exit0_arg4 m ρ c

/-- The second layer's weights, as launched. -/
theorem entry1_w2 : V3 m ρ c main_arg6 = (m ((c : Thread nD τ).loc main_arg6)) := by
  show StableHlo.after hostOps1 (W2 m ρ c) (Proc.devRef .tc main_arg6) = _
  after_results
  exact exit0_arg6 m ρ c

/-- The first layer's bias row: the bias vector reshaped. -/
theorem entry1_b1 : V3 m ρ c main_v16 = shapeCast S1x64 (m ((c : Thread nD τ).loc main_arg5)) shapeCasts_S64_S1x64 := by
  show StableHlo.after hostOps1 (W2 m ρ c) (Proc.devRef .tc main_v16) = _
  after_results
  rw [exit0_arg5]
  rfl

/-- The second layer's bias row: the bias vector reshaped. -/
theorem entry1_b2 : V3 m ρ c main_v17 = shapeCast S1x64 (m ((c : Thread nD τ).loc main_arg7)) shapeCasts_S64_S1x64 := by
  show StableHlo.after hostOps1 (W2 m ρ c) (Proc.devRef .tc main_v17) = _
  after_results
  rw [exit0_arg7]
  rfl

/-! ## Leaving the node-update region -/

/-- The region's output is the reference's node-update stage. -/
theorem exit1_nodes :
    W4 m ρ c (Proc.devRef .tc main_v18)
      = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) := by
  refine (W4_arr m ρ c 6).trans ((NodeArray.final_node (V3 m ρ) c).trans ?_)
  rw [entry1_x, entry1_agg, entry1_w1, entry1_b1, entry1_w2, entry1_b2]
  exact (Cert.ReferenceIdeal.RefValue.node_stage _ _ _ _ _ _ _ _ _ _ _).symm

/-! Arguments the region does not stage are as launched. -/
theorem exit1_arg8 : W4 m ρ c (Proc.devRef .tc main_arg8) = (m ((c : Thread nD τ).loc main_arg8)) :=
  (W4_of_ne m ρ c main_arg8 (by decide)).trans (by
    show StableHlo.after hostOps1 (W2 m ρ c) (Proc.devRef .tc main_arg8) = _
    after_results
    exact exit0_arg8 m ρ c)
theorem exit1_arg9 : W4 m ρ c (Proc.devRef .tc main_arg9) = (m ((c : Thread nD τ).loc main_arg9)) :=
  (W4_of_ne m ρ c main_arg9 (by decide)).trans (by
    show StableHlo.after hostOps1 (W2 m ρ c) (Proc.devRef .tc main_arg9) = _
    after_results
    exact exit0_arg9 m ρ c)
theorem exit1_arg10 : W4 m ρ c (Proc.devRef .tc main_arg10) = (m ((c : Thread nD τ).loc main_arg10)) :=
  (W4_of_ne m ρ c main_arg10 (by decide)).trans (by
    show StableHlo.after hostOps1 (W2 m ρ c) (Proc.devRef .tc main_arg10) = _
    after_results
    exact exit0_arg10 m ρ c)
theorem exit1_arg11 : W4 m ρ c (Proc.devRef .tc main_arg11) = (m ((c : Thread nD τ).loc main_arg11)) :=
  (W4_of_ne m ρ c main_arg11 (by decide)).trans (by
    show StableHlo.after hostOps1 (W2 m ρ c) (Proc.devRef .tc main_arg11) = _
    after_results
    exact exit0_arg11 m ρ c)
theorem exit1_arg13 : W4 m ρ c (Proc.devRef .tc main_arg13) = (m ((c : Thread nD τ).loc main_arg13)) :=
  (W4_of_ne m ρ c main_arg13 (by decide)).trans (by
    show StableHlo.after hostOps1 (W2 m ρ c) (Proc.devRef .tc main_arg13) = _
    after_results
    exact exit0_arg13 m ρ c)

/-! ## The pooling and the head -/

/-- The result buffer at the end of @main is the reference's result term of the launch arrays: the same host
    operations applied to the node-update stage and to the head's weights and the graph assignment as launched. -/
theorem result_eq :
    W7 m ρ c (Proc.devRef .tc main_v39)
      = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2_2 (StableHlo.after hostOps2_1 (StableHlo.after hostOps2 (W4 m ρ c)))
    (Proc.devRef .tc main_v39) = _
  after_results_simp
  rw [exit1_nodes, exit1_arg8, exit1_arg9, exit1_arg10, exit1_arg11, exit1_arg13]
  rfl

end Cert.KernelIdeal.Fold

end
-- ==== Proof.lean ====
/-
  A message-passing layer on a graph of 100000 nodes and 3200000 edges, mean pooling over 2048 graphs and a two-layer
  head, computed two ways.

  Both programs gather the source node's 12 features along every edge, add the encoded edge attributes
  (`a · W + b`), clamp at zero, and add the messages up at every destination node; then update every node by two
  dense layers over `1 * x + aggregated`, each clamped at zero; then average the node outputs over each graph
  (dividing by the larger of the node count and one) and apply the head.

  The kernel computes the edge messages in 400 blocks of 8000 edges and the node update in 20 blocks of 5000 nodes,
  with its matrix products taken in a narrower float format into a zero accumulator; the reference computes each as
  one whole-array expression.  Over the extended reals a change of float format is the identity and a product into
  a zero accumulator is the plain sum, so each block of a region's output is the matching block of ONE whole-array
  function of the arrays the region reads (`Spec.edgeMsg`, `Spec.nodeOut`), and the reference's corresponding stage,
  read entry by entry, is the same function.  The gather, the two scatter-adds, the pooling and the head are the same
  host operations on both sides, applied to equal arrays.  No law of arithmetic beyond `0 + s = s` is used, so the
  precondition (finite inputs) is never opened.

  The three frames are the generated frame runs (the reference's is its run with the result dropped); the
  idealization rewrote no operation, so that conjunct is `True`.
-/
import proofs.«164397_j57234734187243_1_alg».proof.Defs
import proofs.«164397_j57234734187243_1_alg».proof.Proof.Gen.Kernel
import proofs.«164397_j57234734187243_1_alg».proof.Proof.Gen.Kernel.Frame
import proofs.«164397_j57234734187243_1_alg».proof.Proof.Gen.KernelIdeal
import proofs.«164397_j57234734187243_1_alg».proof.Proof.Gen.KernelIdeal.Frame
import proofs.«164397_j57234734187243_1_alg».proof.Proof.Gen.ReferenceIdeal
import proofs.«164397_j57234734187243_1_alg».proof.Proof.Gen.Pre_finite_inputs
import proofs.«164397_j57234734187243_1_alg».proof.Proof.Gen.ReferenceIdeal.Run
import proofs.«164397_j57234734187243_1_alg».proof.Proof.Gen.ReferenceIdeal.Read
import proofs.«164397_j57234734187243_1_alg».proof.Proof.KRun
import proofs.«164397_j57234734187243_1_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result term of the kernel's
    launch arrays: the kernel by reading its run back through the two regions, the reference by its run and the
    agreement. -/
theorem algebraic : Cert.algebraic_KernelIdeal_ReferenceIdeal := by
  intro m ρ m' ρ' _ hagree
  refine ⟨fun c => Cert.ReferenceIdeal.Read.val_main_v53 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Fold.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v53_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
